-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x40 .f32) (main_arg7 : FVec F S40 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x40 .f32 := Host.absf main_arg6
  let main_cst_10 : FVec F S_ .f32 := constant S_ .f32 0x7F800000#32
  let main_v30 : FVec F S512x40 .f32 := broadcastInDim S512x40 ![] bcast_S_S512x40 main_cst_10
  let main_v31 : IVec S512x40 1 := cmpf .olt main_v29 main_v30
  let main_c_11 : IVec S_ 1 := constantI S_ 1 1#1
  let main_v32 : IVec S_ 1 := (fun x v => Host.reduce IntOp.andi x v reducesTo_S512x40_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x40 .f32) (main_arg7 : FVec F S40 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S1x40 : Shape := ⟨2, ![1, 40]⟩
abbrev S200x10000 : Shape := ⟨2, ![200, 10000]⟩
abbrev S200x512 : Shape := ⟨2, ![200, 512]⟩
abbrev S10000x40 : Shape := ⟨2, ![10000, 40]⟩
abbrev S400x10000 : Shape := ⟨2, ![400, 10000]⟩
abbrev S400x40 : Shape := ⟨2, ![400, 40]⟩
abbrev S400x512 : Shape := ⟨2, ![400, 512]⟩
abbrev S400 : Shape := ⟨1, ![400]⟩
abbrev S400x1 : Shape := ⟨2, ![400, 1]⟩

abbrev nBuf : Space → Nat
  | .hbm => 19
  | .vmem => 23
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x512, .bf16⟩
  | .hbm, ⟨9, _⟩ => ⟨S512x512, .bf16⟩
  | .hbm, ⟨10, _⟩ => ⟨S512x512, .bf16⟩
  | .hbm, ⟨11, _⟩ => ⟨S512x40, .bf16⟩
  | .hbm, ⟨12, _⟩ => ⟨S1x512, .f32⟩
  | .hbm, ⟨13, _⟩ => ⟨S1x512, .f32⟩
  | .hbm, ⟨14, _⟩ => ⟨S1x40, .f32⟩
  | .hbm, ⟨15, _⟩ => ⟨S10000x512, .bf16⟩
  | .hbm, ⟨16, _⟩ => ⟨S10000x10000, .bf16⟩
  | .hbm, ⟨17, _⟩ => ⟨S10000x40, .bf16⟩
  | .hbm, ⟨18, _⟩ => ⟨S10000x40, .f32⟩
  | .local _ .vmem, ⟨0, _⟩ => ⟨S200x10000, .f32⟩
  | .local _ .vmem, ⟨1, _⟩ => ⟨S200x10000, .f32⟩
  | .local _ .vmem, ⟨2, _⟩ => ⟨S10000x512, .bf16⟩
  | .local _ .vmem, ⟨3, _⟩ => ⟨S512x512, .bf16⟩
  | .local _ .vmem, ⟨4, _⟩ => ⟨S1x512, .f32⟩
  | .local _ .vmem, ⟨5, _⟩ => ⟨S200x512, .bf16⟩
  | .local _ .vmem, ⟨6, _⟩ => ⟨S200x512, .bf16⟩
  | .local _ .vmem, ⟨7, _⟩ => ⟨S200x10000, .bf16⟩
  | .local _ .vmem, ⟨8, _⟩ => ⟨S200x10000, .bf16⟩
  | .local _ .vmem, ⟨9, _⟩ => ⟨S400x10000, .bf16⟩
  | .local _ .vmem, ⟨10, _⟩ => ⟨S400x10000, .bf16⟩
  | .local _ .vmem, ⟨11, _⟩ => ⟨S10000x512, .bf16⟩
  | .local _ .vmem, ⟨12, _⟩ => ⟨S512x512, .bf16⟩
  | .local _ .vmem, ⟨13, _⟩ => ⟨S1x512, .f32⟩
  | .local _ .vmem, ⟨14, _⟩ => ⟨S512x40, .bf16⟩
  | .local _ .vmem, ⟨15, _⟩ => ⟨S400x40, .bf16⟩
  | .local _ .vmem, ⟨16, _⟩ => ⟨S400x40, .bf16⟩
  | .local _ .vmem, ⟨17, _⟩ => ⟨S400x10000, .bf16⟩
  | .local _ .vmem, ⟨18, _⟩ => ⟨S400x10000, .bf16⟩
  | .local _ .vmem, ⟨19, _⟩ => ⟨S10000x40, .bf16⟩
  | .local _ .vmem, ⟨20, _⟩ => ⟨S1x40, .f32⟩
  | .local _ .vmem, ⟨21, _⟩ => ⟨S400x40, .f32⟩
  | .local _ .vmem, ⟨22, _⟩ => ⟨S400x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x40 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S512_S1x512 : S512.ShapeCasts S1x512
  shapeCasts_S40_S1x40 : S40.ShapeCasts S1x40
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  packedbf16_S200x512_S200x512_0_0 : (Rect.unit (s := S200x512) ![0, 0] S200x512.size inb_S200x512_S200x512_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x512_S400x512 : S1x512.Broadcasts S400x512
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S400x40_S400x40_0_0 : ∀ a, (![0, 0] : Fin 2 → Nat) a + S400x40.size a ≤ S400x40.size a
  h_S400x40 : 0 < S400x40.numel
  packedbf16_S400x40_S400x40_0_0 : (Rect.unit (s := S400x40) ![0, 0] S400x40.size inb_S400x40_S400x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  dot_S400x512_S512x40_S400x40_1_0_0_1_n_n_wf : DotDims.WF S400x512 S512x40 S400x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x512.size a ≤ S10000x512.size a
  hwx0_4 : ∀ i : grid0.Coords, EltTy.bits .bf16 = 32 ∨ (Rect.block (s := S10000x512) S200x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x40.size a ≤ S512x40.size a
  hwx1_4 : ∀ i : grid1.Coords, EltTy.bits .bf16 = 32 ∨ (Rect.block (s := S512x40) S512x40.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x40.size a ≤ S10000x40.size a
  hwx1_5 : ∀ i : grid1.Coords, EltTy.bits .bf16 = 32 ∨ (Rect.block (s := S10000x40) S400x40.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .bf16 = 32 ∨ (Rect.block (s := S10000x40) S10000x40.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x40.size a ≤ S10000x40.size a
  hwx2_3 : ∀ i : grid2.Coords, EltTy.bits .f32 = 32 ∨ (Rect.block (s := S10000x40) S400x40.size (cc2_transform_3 i) (hinb2_3 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x40_S400x40_1_0_0_1_n_n : DotDims S400x512 S512x40 S400x40 where
  lhsContracting := [1]
  rhsContracting := [0]
  lhsNonContracting := [0]
  rhsNonContracting := [1]
  lhsBatch := []
  rhsBatch := []
  wf := dot_S400x512_S512x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S200x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S200x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S400x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S400x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x512, .f32⟩
  | .hbm, ⟨9, _⟩ => ⟨S10000x512, .f32⟩
  | .hbm, ⟨10, _⟩ => ⟨S1x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S10000x512, .f32⟩
  | .hbm, ⟨18, _⟩ => ⟨S1x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x40, .f32⟩
  | .hbm, ⟨36, _⟩ => ⟨S10000x40, .f32⟩
  | .hbm, ⟨37, _⟩ => ⟨S10000x40, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x40, .f32⟩
  | .hbm, ⟨43, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []
  dot_S10000x10000_S10000x40_S10000x40_1_0_0_1_n_n_wf : DotDims.WF S10000x10000 S10000x40 S10000x40 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«169528_g90134183674392_cont_sun_m_86_6_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.FiniteInputs.lean ====
/-
  The input check read back: when `finite_inputs` of the eight argument arrays is all ones, every entry of every
  argument is a real. The check is a conjunction of eight tests, one per array, each "the absolute value of every entry
  is below +∞"; an extended real whose absolute value is below +∞ is a real.
-/
import proofs.«169528_g90134183674392_cont_sun_m_86_6_alg».proof.Pre_finite_inputs
import Idealize.ShloMosaic.PureOps.Ideal
import Idealize.ShloMosaic.Lib.ValueIdx
import Idealize.ShloMosaic.Lib.ReduceAll
import proofs.«169528_g90134183674392_cont_sun_m_86_6_alg».proof.Proof.LibIdealSums
import proofs.«169528_g90134183674392_cont_sun_m_86_6_alg».proof.Proof.LibRowVector

noncomputable section

namespace Cert.FiniteInputs

open Idealize.ShloMosaic Idealize.ShloMosaic.ValueIdx Cert.Lib.IdealSums

instance : Subsingleton (⟨0, ![]⟩ : Shape).Idx := ⟨fun _ _ => funext fun d => d.elim0⟩

/-- One test of the check: if the conjunction over all entries of "|x| < +∞" is one, every entry of x is a real. -/
theorem all_real {s : Shape} {axes : List (Fin s.rank)} (x : FVec Ideal s .f32)
    (hb : (⟨0, ![]⟩ : Shape).BroadcastsInDim s ![]) (hr : s.ReducesTo axes ⟨0, ![]⟩)
    (hS : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hS ix0 = 1#1) (i : s.Idx) : IsReal (x i) := by
  have h := Host.reduce_andi_all _ _ hr hS ix0 e i
  have hb' : broadcastInDim s ![] hb (constant (F := Ideal) ⟨0, ![]⟩ .f32 0x7F800000#32) i
      = FloatOps.ofBits (F := Ideal) .f32 0x7F800000#32 :=
    Cert.Lib.RowVector.bcastInDim_scalar_apply _ hb i
  rw [cmpf_apply, hb'] at h
  exact isReal_of_cmpf_abs (x i) h

variable [Cert.Pre_finite_inputs.Facts]

/-- The whole check: all eight arrays hold reals. -/
theorem reals_of_check (a0 : FVec Ideal Cert.Pre_finite_inputs.S10000x512 .f32)
    (a1 : FVec Ideal Cert.Pre_finite_inputs.S10000x10000 .f32) (a2 : FVec Ideal Cert.Pre_finite_inputs.S512x512 .f32)
    (a3 : FVec Ideal Cert.Pre_finite_inputs.S512 .f32) (a4 : FVec Ideal Cert.Pre_finite_inputs.S512x512 .f32)
    (a5 : FVec Ideal Cert.Pre_finite_inputs.S512 .f32) (a6 : FVec Ideal Cert.Pre_finite_inputs.S512x40 .f32)
    (a7 : FVec Ideal Cert.Pre_finite_inputs.S40 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Cert.FiniteInputs

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«169528_g90134183674392_cont_sun_m_86_6_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«169528_g90134183674392_cont_sun_m_86_6_alg».proof.Proof.LibBlockReads
import proofs.«169528_g90134183674392_cont_sun_m_86_6_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibRowVector
import proofs.«169528_g90134183674392_cont_sun_m_86_6_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«169528_g90134183674392_cont_sun_m_86_6_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«169528_g90134183674392_cont_sun_m_86_6_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«169528_g90134183674392_cont_sun_m_86_6_alg».proof.Proof.LibBlockReads
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«169528_g90134183674392_cont_sun_m_86_6_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«169528_g90134183674392_cont_sun_m_86_6_alg».proof.Proof.LibIdealSums
import proofs.«169528_g90134183674392_cont_sun_m_86_6_alg».proof.Proof.LibRowReductions
import proofs.«169528_g90134183674392_cont_sun_m_86_6_alg».proof.Proof.LibRowVector
import proofs.«169528_g90134183674392_cont_sun_m_86_6_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.LibGraphConv.lean ====
/-
  Graph-convolution layers on the extended reals: a propagation matrix A applied to a feature matrix H and a weight
  matrix W. A kernel may group the two products as (A·H)·W where the reference groups them as A·(H·W). Moving a factor
  into a sum is not a law of the extended reals (an infinity of each sign spoils it), but it is one over reals, so over
  arrays of reals the product of matrices is associative; and sums, products, bias additions and maxima with the zero
  word of reals are reals, so the property passes from layer to layer. An entry of a layer's result depends on one row
  of A, so a layer applied to a block of rows of A gives the same rows of the layer applied to A (`layer_at`,
  `proj_at`, `logSoftmax_layer_at`: the index inside the block and the index of the whole array as variables, the
  other operands equal by hypothesis). Nothing here mentions a program.
-/
import Mathlib.Algebra.BigOperators.Fin
import Mathlib.Data.EReal.Inv
import Idealize.ShloMosaic.PureOps.Ideal.Laws
import Idealize.ShloMosaic.Lib.ValueIdx
import proofs.«169528_g90134183674392_cont_sun_m_86_6_alg».proof.Proof.LibIdealSums
import proofs.«169528_g90134183674392_cont_sun_m_86_6_alg».proof.Proof.LibRealSums
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibDenseLayers
import proofs.«169528_g90134183674392_cont_sun_m_86_6_alg».proof.Proof.LibBlockReads
import proofs.«169528_g90134183674392_cont_sun_m_86_6_alg».proof.Proof.LibRowBlocks
import proofs.«169528_g90134183674392_cont_sun_m_86_6_alg».proof.Proof.LibInPlaceBodies
import proofs.«169528_g90134183674392_cont_sun_m_86_6_alg».proof.Proof.LibLogSoftmaxRows

open scoped BigOperators

noncomputable section

namespace Cert.Lib.GraphConv

open Idealize.ShloMosaic Idealize.ShloMosaic.ValueIdx Cert.Lib.IdealSums Cert.Lib.RealSums Cert.Lib.MatProd
  Cert.Lib.BiasRelu Cert.Layers

variable {m k n l : Nat}

/-- A real factor moves inside a finite sum of reals: c · Σ f = Σ c · f. -/
theorem mul_sum_of_isReal {ι : Type*} (s : Finset ι) (c : EReal) (f : ι → EReal) (hc : IsReal c)
    (hf : ∀ i ∈ s, IsReal (f i)) : c * ∑ i ∈ s, f i = ∑ i ∈ s, c * f i := by
  have h := sum_mul_of_isReal s f (fun _ => 1) c hf (fun _ _ => isReal_one) hc
  simp only [mul_one, one_mul] at h
  rw [mul_comm, h]
  exact Finset.sum_congr rfl fun i _ => mul_comm _ _

/-- Every entry of a product of two matrices of reals is a real. -/
theorem isReal_matProd (A : (⟨2, ![m, k]⟩ : Shape).Idx → EReal) (B : (⟨2, ![k, n]⟩ : Shape).Idx → EReal)
    (hA : ∀ i, IsReal (A i)) (hB : ∀ i, IsReal (B i)) (i : (⟨2, ![m, n]⟩ : Shape).Idx) : IsReal (matProd A B i) := by
  unfold matProd
  exact IsReal.sum _ fun c _ => (hA _).mul (hB _)

/-- The zero word is a real. -/
theorem isReal_zero_word : IsReal (Ideal.ofBits .f32 0x00000000#32) := by
  rw [Ideal.ofBits_zero_f32]; exact isReal_zero

/-- A bias row of reals added to a matrix of reals, clamped or not, has real entries. -/
theorem isReal_biasRelu (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasRelu X b i) := by
  unfold biasRelu
  exact isReal_max ((hX i).add (hb _)) isReal_zero_word

theorem isReal_biasAdd (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasAdd X b i) := by
  unfold biasAdd
  exact (hX i).add (hb _)

/-- A vector of reals as a row has real entries. -/
theorem isReal_asRow (v : (⟨1, ![n]⟩ : Shape).Idx → EReal) (hv : ∀ i, IsReal (v i)) (i : (⟨2, ![1, n]⟩ : Shape).Idx) :
    IsReal (Cert.Lib.RowVector.asRow v i) := hv _

/-- Over matrices of reals the product is associative: entry (p, q) of either grouping is the double sum over
    (d, c) of A(p, d) · H(d, c) · W(c, q), each factor moved into or out of the inner sum and the two sums exchanged. -/
theorem matProd_assoc (A : (⟨2, ![m, k]⟩ : Shape).Idx → EReal) (H : (⟨2, ![k, n]⟩ : Shape).Idx → EReal)
    (W : (⟨2, ![n, l]⟩ : Shape).Idx → EReal) (hA : ∀ i, IsReal (A i)) (hH : ∀ i, IsReal (H i)) (hW : ∀ i, IsReal (W i)) :
    matProd (matProd A H) W = matProd A (matProd H W) := by
  funext i
  obtain ⟨p, q, rfl⟩ : ∃ (p : Fin m) (q : Fin l), i = ix2 p q := ⟨i 0, i 1, eq_ix2 i⟩
  rw [matProd_apply, matProd_apply]
  calc ∑ c : Fin n, matProd A H (ix2 p c) * W (ix2 c q)
      = ∑ c : Fin n, ∑ d : Fin k, A (ix2 p d) * (H (ix2 d c) * W (ix2 c q)) :=
        Finset.sum_congr rfl fun c _ => by
          rw [matProd_apply]
          exact sum_mul_of_isReal _ _ _ _ (fun d _ => hA _) (fun d _ => hH _) (hW _)
    _ = ∑ d : Fin k, ∑ c : Fin n, A (ix2 p d) * (H (ix2 d c) * W (ix2 c q)) := Finset.sum_comm
    _ = ∑ d : Fin k, A (ix2 p d) * matProd H W (ix2 d q) :=
        Finset.sum_congr rfl fun d _ => by
          rw [matProd_apply]
          exact (mul_sum_of_isReal _ _ _ (hA _) fun c _ => (hH _).mul (hW _)).symm

/-! ## A loaded 1×n bias row beside an r×n block -/

/-- A 1×n row broadcast down the rows of an r×n block and added: the bias row added to every row. -/
theorem bias_row (M : FVec Ideal ⟨2, ![m, n]⟩ .f32) (row : FVec Ideal ⟨2, ![1, n]⟩ .f32)
    (hb : (⟨2, ![1, n]⟩ : Shape).Broadcasts ⟨2, ![m, n]⟩) :
    addf M (broadcastTo ⟨2, ![m, n]⟩ row hb) = biasAdd M row := by
  funext i
  obtain ⟨p, q, rfl⟩ : ∃ (p : Fin m) (q : Fin n), i = ix2 p q := ⟨i 0, i 1, eq_ix2 i⟩
  rw [addf_apply, Cert.Lib.BlockReads.broadcast_row_apply]
  rfl

/-- The same followed by the maximum with a splat of the zero word. -/
theorem bias_max_row (M : FVec Ideal ⟨2, ![m, n]⟩ .f32) (row : FVec Ideal ⟨2, ![1, n]⟩ .f32)
    (hb : (⟨2, ![1, n]⟩ : Shape).Broadcasts ⟨2, ![m, n]⟩) :
    maximumf (addf M (broadcastTo ⟨2, ![m, n]⟩ row hb))
      (broadcast ⟨2, ![m, n]⟩ (Scalar.ofBits (F := Ideal) .f32 0x00000000#32)) = biasRelu M row := by
  funext i
  obtain ⟨p, q, rfl⟩ : ∃ (p : Fin m) (q : Fin n), i = ix2 p q := ⟨i 0, i 1, eq_ix2 i⟩
  rw [maximumf_apply, addf_apply, Cert.Lib.BlockReads.broadcast_row_apply]
  rfl

/-! ## A block of rows of the propagation matrix gives the same rows of a layer -/

/-- max((A'·H')·W' + b', 0) at y is max((A·H)·W + b, 0) at i, when row (y 0) of A' is row (i 0) of A, the other
    operands are equal and y, i have the same column. -/
theorem layer_at {m' : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (y : (⟨2, ![m', l]⟩ : Shape).Idx) (i : (⟨2, ![m, l]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hcol : (y 1).val = (i 1).val) :
    biasRelu (matProd (matProd A' H') W') b' y = biasRelu (matProd (matProd A H) W) b i := by
  subst hH hW hb
  refine Cert.Lib.InPlaceBodies.biasRelu_at _ _ _ y i (Cert.Lib.RowBlocks.matProd_rows _ _ _ y i (fun c => ?_) hcol) hcol
  exact matProd_block A A' H' H' _ c _ c hA fun _ => rfl

/-- The same layer followed by a projection: (max((A'·H')·W' + b', 0))·P' at y is the whole array's at i. -/
theorem proj_at {m' o : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (P P' : (⟨2, ![l, o]⟩ : Shape).Idx → EReal)
    (y : (⟨2, ![m', o]⟩ : Shape).Idx) (i : (⟨2, ![m, o]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hP : P' = P) (hcol : (y 1).val = (i 1).val) :
    matProd (biasRelu (matProd (matProd A' H') W') b') P' y = matProd (biasRelu (matProd (matProd A H) W) b) P i := by
  subst hP
  refine Cert.Lib.RowBlocks.matProd_rows _ _ _ y i (fun c => ?_) hcol
  exact layer_at A A' H H' W W' b b' (ix2 _ c) (ix2 _ c) hA hH hW hb rfl

/-- The logarithm of the softmax of A'·Z' + b' along each row at y is the whole array's at i. -/
theorem logSoftmax_layer_at {m' : Nat} (A : (⟨2, ![m, k]⟩ : Shape).Idx → EReal) (A' : (⟨2, ![m', k]⟩ : Shape).Idx → EReal)
    (Z Z' : (⟨2, ![k, n]⟩ : Shape).Idx → EReal) (b b' : (⟨2, ![1, n]⟩ : Shape).Idx → EReal)
    (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hZ : Z' = Z) (hb : b' = b) (hcol : (y 1).val = (i 1).val) :
    Cert.Lib.LogSoftmaxRows.logSoftmaxK (biasAdd (matProd A' Z') b') y
      = Cert.Lib.LogSoftmaxRows.logSoftmaxK (biasAdd (matProd A Z) b) i := by
  subst hZ hb
  refine Cert.Lib.LogSoftmaxRows.logSoftmaxK_rows _ _ y i (fun q => ?_) hcol
  exact Cert.Lib.InPlaceBodies.biasAdd_at _ _ _ (ix2 _ q) (ix2 _ q)
    (Cert.Lib.RowBlocks.matProd_rows A A' Z' (ix2 _ q) (ix2 _ q) hA rfl) rfl

end Cert.Lib.GraphConv

end
-- ==== Proof.GcnSpec.lean ====
/-
  A three-layer graph convolution on the extended reals, as one whole-array function of its eight arguments, in the two
  groupings that are compared: the kernel computes each hidden layer as max((A·H)·W + b, 0) and the result as
  z − (top + lse) of the logits z; the reference computes max(A·(H·W) + b, 0) and (z − top) − lse. Over arguments that
  are all reals the two are one function: the product of matrices of reals is associative, each layer of reals is again
  an array of reals, and the top of a row of 40 reals is a real. Nothing here mentions a program.
-/
import proofs.«169528_g90134183674392_cont_sun_m_86_6_alg».proof.Proof.LibIdealSums
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibDenseLayers
import proofs.«169528_g90134183674392_cont_sun_m_86_6_alg».proof.Proof.LibRowVector
import proofs.«169528_g90134183674392_cont_sun_m_86_6_alg».proof.Proof.LibGraphConv
import proofs.«169528_g90134183674392_cont_sun_m_86_6_alg».proof.Proof.LibLogSoftmaxRows

noncomputable section

namespace Cert.Gcn

open Idealize.ShloMosaic Idealize.ShloMosaic.ValueIdx Cert.Lib.IdealSums Cert.Lib.MatProd Cert.Lib.BiasRelu Cert.Layers
  Cert.Lib.RowVector Cert.Lib.GraphConv Cert.Lib.LogSoftmaxRows

variable {n f g h o : Nat}

/-- The logits as the reference groups them: A·(h₂·Wc) + bc with h₁ = max(A·(X·W₀) + b₀, 0), h₂ = max(A·(h₁·W₁) + b₁, 0). -/
def logitsR (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal) : (⟨2, ![n, o]⟩ : Shape).Idx → EReal :=
  biasAdd (matProd A (matProd (biasRelu (matProd A (matProd (biasRelu (matProd A (matProd X W0)) (asRow b0)) W1)) (asRow b1)) Wc))
    (asRow bc)

/-- The logits as the kernel groups them: A·(h₂·Wc) + bc with h₁ = max((A·X)·W₀ + b₀, 0), h₂ = max((A·h₁)·W₁ + b₁, 0). -/
def logitsK (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal) : (⟨2, ![n, o]⟩ : Shape).Idx → EReal :=
  biasAdd (matProd A (matProd (biasRelu (matProd (matProd A (biasRelu (matProd (matProd A X) W0) (asRow b0))) W1) (asRow b1)) Wc))
    (asRow bc)

/-- Over reals the two groupings of the logits agree, and the logits are reals. -/
theorem logitsK_eq (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal)
    (hX : ∀ i, IsReal (X i)) (hA : ∀ i, IsReal (A i)) (hW0 : ∀ i, IsReal (W0 i)) (hb0 : ∀ i, IsReal (b0 i))
    (hW1 : ∀ i, IsReal (W1 i)) (hb1 : ∀ i, IsReal (b1 i)) (hWc : ∀ i, IsReal (Wc i)) (hbc : ∀ i, IsReal (bc i)) :
    logitsK X A W0 b0 W1 b1 Wc bc = logitsR X A W0 b0 W1 b1 Wc bc ∧ ∀ i, IsReal (logitsR X A W0 b0 W1 b1 Wc bc i) := by
  have r1 : ∀ i, IsReal (biasRelu (matProd A (matProd X W0)) (asRow b0) i) :=
    isReal_biasRelu _ _ (isReal_matProd A _ hA (isReal_matProd X W0 hX hW0)) (isReal_asRow b0 hb0)
  have r2 : ∀ i, IsReal (biasRelu (matProd A (matProd (biasRelu (matProd A (matProd X W0)) (asRow b0)) W1)) (asRow b1) i) :=
    isReal_biasRelu _ _ (isReal_matProd A _ hA (isReal_matProd _ W1 r1 hW1)) (isReal_asRow b1 hb1)
  refine ⟨?_, isReal_biasAdd _ _ (isReal_matProd A _ hA (isReal_matProd _ Wc r2 hWc)) (isReal_asRow bc hbc)⟩
  unfold logitsK logitsR
  rw [matProd_assoc A X W0 hA hX hW0, matProd_assoc A _ W1 hA r1 hW1]

/-- The result as the kernel groups it, and as the reference does. -/
def outK (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal) : (⟨2, ![n, o]⟩ : Shape).Idx → EReal :=
  logSoftmaxK (logitsK X A W0 b0 W1 b1 Wc bc)

def outR (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal) : (⟨2, ![n, o]⟩ : Shape).Idx → EReal :=
  logSoftmax (logitsR X A W0 b0 W1 b1 Wc bc)

/-- Over real arguments, with at least one class, the kernel's grouping and the reference's are one function. -/
theorem outK_eq_outR (X : (⟨2, ![n, f]⟩ : Shape).Idx → EReal) (A : (⟨2, ![n, n]⟩ : Shape).Idx → EReal)
    (W0 : (⟨2, ![f, g]⟩ : Shape).Idx → EReal) (b0 : (⟨1, ![g]⟩ : Shape).Idx → EReal)
    (W1 : (⟨2, ![g, h]⟩ : Shape).Idx → EReal) (b1 : (⟨1, ![h]⟩ : Shape).Idx → EReal)
    (Wc : (⟨2, ![h, o]⟩ : Shape).Idx → EReal) (bc : (⟨1, ![o]⟩ : Shape).Idx → EReal) (ho : 0 < o)
    (hX : ∀ i, IsReal (X i)) (hA : ∀ i, IsReal (A i)) (hW0 : ∀ i, IsReal (W0 i)) (hb0 : ∀ i, IsReal (b0 i))
    (hW1 : ∀ i, IsReal (W1 i)) (hb1 : ∀ i, IsReal (b1 i)) (hWc : ∀ i, IsReal (Wc i)) (hbc : ∀ i, IsReal (bc i)) :
    outK X A W0 b0 W1 b1 Wc bc = outR X A W0 b0 W1 b1 Wc bc := by
  obtain ⟨e, r⟩ := logitsK_eq X A W0 b0 W1 b1 Wc bc hX hA hW0 hb0 hW1 hb1 hWc hbc
  unfold outK outR
  rw [e]
  exact logSoftmaxK_eq _ ho r

end Cert.Gcn

end
-- ==== Proof.KernelNamedRun.lean ====
/-
  The kernel program's run with its result named: every weakly fair execution of its three regions in a row terminates
  without a fault, the result buffer holds what the last region's write-backs leave in it (the contents `W4` of the
  buffers at the last segment boundary, read at the result), and the arguments are unchanged. Stated for any float
  values.
-/
import proofs.«169528_g90134183674392_cont_sun_m_86_6_alg».proof.Proof.Gen.KernelIdeal.Frame

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four segments (the host stretch and the three regions), the last thread state read against the
    final state: every unscoped buffer ends at the last boundary's contents, in particular the result buffer; each
    argument's contents there are the launch contents. -/
theorem run_named : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.NamedRun

end
-- ==== Proof.KernelBodies.lean ====
/-
  The three kernel bodies as whole-block functions on the extended reals. Changing a float's format does nothing to an
  extended real and a block re-shaped to its own shape is itself, so:
  the first body stores the block of A unchanged, and max((A_blk · X) · W + bias row, 0);
  the second stores (max((A_blk · H) · W + bias row, 0)) · Wc;
  the third stores, row by row, z − (top + lse) of z = A_blk · Z + bias row (the logarithm of the softmax, grouped the
  body's way).
-/
import proofs.«169528_g90134183674392_cont_sun_m_86_6_alg».proof.Proof.Gen.KernelIdeal.Skeleton
import Idealize.ShloMosaic.Lib.Pipeline.Value
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibDenseLayers
import proofs.«169528_g90134183674392_cont_sun_m_86_6_alg».proof.Proof.LibGraphConv
import proofs.«169528_g90134183674392_cont_sun_m_86_6_alg».proof.Proof.LibLogSoftmaxRows

noncomputable section

namespace Cert.KernelIdeal.Bodies

open Idealize.ShloMosaic Idealize.ShloMosaic.ValueIdx Cert.KernelIdeal Cert.KernelIdeal.Gen
open Cert.Lib.MatProd Cert.Lib.BiasRelu Cert.Layers Cert.Lib.GraphConv Cert.Lib.LogSoftmaxRows
open Cert.KernelIdeal.Facts₀

/-- The first body's copy of the propagation block: the block itself. -/
theorem copy_block (x0 : Vec Ideal S200x10000 .f32) : (k0_pay1 (F := Ideal) x0 : S200x10000.Idx → EReal) = x0 := rfl

/-- The first body's layer: max((A_blk · X) · W + b, 0). -/
theorem layer1_block (x0 : Vec Ideal S200x10000 .f32) (x1 : Vec Ideal S10000x512 .bf16) (x2 : Vec Ideal S512x512 .bf16)
    (x3 : Vec Ideal S1x512 .f32) :
    (k0_pay2 (F := Ideal) x0 x1 x2 x3 : S200x512.Idx → EReal) = biasRelu (matProd (matProd x0 x1) x2) x3 := by
  unfold k0_pay2 k0_pay1
  dsimp only
  rw [shapeCast_self, shapeCast_self, shapeCast_self,
    matmul_zero_eq_matProd dot_S200x10000_S10000x512_S200x512_1_0_0_1_n_n rfl rfl rfl rfl rfl rfl,
    matmul_zero_eq_matProd dot_S200x512_S512x512_S200x512_1_0_0_1_n_n rfl rfl rfl rfl rfl rfl,
    bias_max_row]
  rfl

/-- The second body: (max((A_blk · H) · W + b, 0)) · Wc. -/
theorem layer2_block (x0 : Vec Ideal S400x10000 .bf16) (x1 : Vec Ideal S10000x512 .bf16) (x2 : Vec Ideal S512x512 .bf16)
    (x3 : Vec Ideal S1x512 .f32) (x4 : Vec Ideal S512x40 .bf16) :
    (k1_pay1 (F := Ideal) x0 x1 x2 x3 x4 : S400x40.Idx → EReal)
      = matProd (biasRelu (matProd (matProd x0 x1) x2) x3) x4 := by
  unfold k1_pay1
  dsimp only
  rw [shapeCast_self, shapeCast_self, shapeCast_self, shapeCast_self, shapeCast_self,
    matmul_zero_eq_matProd dot_S400x10000_S10000x512_S400x512_1_0_0_1_n_n rfl rfl rfl rfl rfl rfl,
    matmul_zero_eq_matProd dot_S400x512_S512x512_S400x512_1_0_0_1_n_n rfl rfl rfl rfl rfl rfl,
    bias_max_row,
    matmul_zero_eq_matProd dot_S400x512_S512x40_S400x40_1_0_0_1_n_n rfl rfl rfl rfl rfl rfl]
  rfl

/-- The third body: the logarithm of the softmax of A_blk · Z + bias row along each row, grouped z − (top + lse). -/
theorem layer3_block (x0 : Vec Ideal S400x10000 .bf16) (x1 : Vec Ideal S10000x40 .bf16) (x2 : Vec Ideal S1x40 .f32) :
    (k2_pay1 (F := Ideal) x0 x1 x2 : S400x40.Idx → EReal) = logSoftmaxK (biasAdd (matProd x0 x1) x2) := by
  unfold k2_pay1
  dsimp only
  rw [shapeCast_self, shapeCast_self, shapeCast_self,
    matmul_zero_eq_matProd dot_S400x10000_S10000x40_S400x40_1_0_0_1_n_n rfl rfl rfl rfl rfl rfl,
    bias_row]
  exact body_eq _ _ _ _ _ _ _

end Cert.KernelIdeal.Bodies

end
-- ==== Proof.KernelRegion0.lean ====
/-
  The first region of the kernel program: what its two output arrays hold when the region is left, as whole-array
  functions of the arrays the region finds. Point t reads rows 200·t … 200·t+199 of the propagation matrix A and the
  whole of the other three operands, and writes back the same rows of both outputs: the block of A itself, and the
  block of max((A·X)·W₀ + b₀, 0), an entry of which depends on one row of A only. The fifty blocks tile the arrays.
-/
import proofs.«169528_g90134183674392_cont_sun_m_86_6_alg».proof.Proof.Gen.KernelIdeal.Frame
import proofs.«169528_g90134183674392_cont_sun_m_86_6_alg».proof.Proof.KernelBodies
import Idealize.ShloMosaic.Lib.Pipeline.Value
import proofs.«169528_g90134183674392_cont_sun_m_86_6_alg».proof.Proof.LibGraphConv

noncomputable section

open Idealize.ShloMosaic Idealize.ShloMosaic.TcCoe Idealize.SL.Sem
open Idealize.ShloMosaic.Pipeline (Dat)

namespace Cert.KernelIdeal.Blocks0

open Cert.KernelIdeal Cert.KernelIdeal.Gen Cert.KernelIdeal.Bodies Idealize.ShloMosaic.ValueIdx
open Cert.Lib.MatProd Cert.Lib.BiasRelu Cert.Layers Cert.Lib.GraphConv

variable (V : (c : Dev nD) → (b : Ref sig .tc) → Buf (Elt Ideal) ((c : Thread nD τ).loc b))

theorem hz : (![0, 0] : Fin 2 → Nat) = fun _ => 0 := funext fun a => by fin_cases a <;> rfl

/-- The block indices of the region's six windows at each of its fifty points: the propagation matrix and both
    outputs move down one block of rows per point, the other operands stay. -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0 :=
  (by decide +kernel : ∀ t : Fin grid0.N, _)

/-- The first hidden layer, grouped as the kernel computes it: max((A·X)·W₀ + b₀, 0) of the arrays the region finds. -/
def hidden (c : Dev nD) : S10000x512.Idx → EReal :=
  biasRelu (matProd (matProd (V c main_arg1 : S10000x10000.Idx → EReal) (V c main_v0 : S10000x512.Idx → EReal))
    (V c main_v1 : S512x512.Idx → EReal)) (V c main_v4 : S1x512.Idx → EReal)

/-- The propagation matrix as the region finds it (its copy in the shorter float format is the same array of
    extended reals). -/
def adj (c : Dev nD) : S10000x10000.Idx → EReal := (V c main_arg1 : S10000x10000.Idx → EReal)

/-- What point t writes back through the layer's window is block t of `hidden`. -/
theorem flushed0_4 (c : Dev nD) (t : Fin cfg0.N) :
    (dat0 V c).flushed 4 t = ((cfg0.win 4).blk t).view.read (Elt Ideal) (hidden V c) := by
  show (cfg0.win 4).cut (grid0.coords t) ((dat0 V c).after 4 t) = _
  rw [after0_4]
  unfold out0_4
  rw [View.canon_unit_zero hz]
  simp only [View.ld_unit_zero (S := S200x10000) hz, View.ld_unit_zero (S := S10000x512) hz,
    View.ld_unit_zero (S := S512x512) hz, View.ld_unit_zero (S := S1x512) hz]
  rw [layer1_block]
  obtain ⟨e00, e01, e10, e11, e20, e21, e30, e31, e40, e41, e50, e51⟩ := idx0 t
  funext j
  show biasRelu (matProd (matProd (iblk0 V c 0 t) (iblk0 V c 1 t)) (iblk0 V c 2 t)) (iblk0 V c 3 t) j
    = hidden V c (((cfg0.win 4).blk t).view.emb j)
  unfold hidden
  refine layer_at (m := 10000) (k := 10000) (n := 512) (l := 512) (m' := 200)
    (V c main_arg1) (iblk0 V c 0 t) (V c main_v0) (iblk0 V c 1 t) (V c main_v1) (iblk0 V c 2 t) (V c main_v4) (iblk0 V c 3 t)
    j (((cfg0.win 4).blk t).view.emb j) (fun k => ?_) ?_ ?_ ?_ ?_
  · show V c main_arg1 (((cfg0.win 0).blk t).view.emb (ix2 (⟨(j 0).val, idx2_lt0 j⟩ : Fin 200) k)) = V c main_arg1 _
    refine congrArg _ (funext fun a => Fin.ext ?_)
    match a with
    | ⟨0, _⟩ => show win0_0.index t (0 : Fin 2) * 200 + 1 * (j 0).val = win0_4.index t (0 : Fin 2) * 200 + 1 * (j 0).val; omega
    | ⟨1, _⟩ => show win0_0.index t (1 : Fin 2) * 10000 + 1 * k.val = k.val; omega
  · funext y
    show V c main_v0 (((cfg0.win 1).blk t).view.emb y) = V c main_v0 y
    refine congrArg _ (funext fun a => Fin.ext ?_)
    match a with
    | ⟨0, _⟩ => show win0_1.index t (0 : Fin 2) * 10000 + 1 * (y 0).val = (y 0).val; omega
    | ⟨1, _⟩ => show win0_1.index t (1 : Fin 2) * 512 + 1 * (y 1).val = (y 1).val; omega
  · funext y
    show V c main_v1 (((cfg0.win 2).blk t).view.emb y) = V c main_v1 y
    refine congrArg _ (funext fun a => Fin.ext ?_)
    match a with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V c main_v4 (((cfg0.win 3).blk t).view.emb y) = V c main_v4 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 512 + 1 * (y 1).val = (y 1).val; omega
  · show (j 1).val = win0_4.index t (1 : Fin 2) * 512 + 1 * (j 1).val
    omega

/-- What point t writes back through the copy's window is block t of the propagation matrix. -/
theorem flushed0_5 (c : Dev nD) (t : Fin cfg0.N) :
    (dat0 V c).flushed 5 t = ((cfg0.win 5).blk t).view.read (Elt Ideal) (adj V c) := by
  show (cfg0.win 5).cut (grid0.coords t) ((dat0 V c).after 5 t) = _
  rw [after0_5]
  unfold out0_5
  rw [View.canon_unit_zero hz]
  simp only [View.ld_unit_zero (S := S200x10000) hz]
  obtain ⟨e00, e01, e10, e11, e20, e21, e30, e31, e40, e41, e50, e51⟩ := idx0 t
  funext j
  show V c main_arg1 (((cfg0.win 0).blk t).view.emb j) = V c main_arg1 (((cfg0.win 5).blk t).view.emb j)
  refine congrArg _ (funext fun a => Fin.ext ?_)
  match a with
  | ⟨0, _⟩ => show win0_0.index t (0 : Fin 2) * 200 + 1 * (j 0).val = win0_5.index t (0 : Fin 2) * 200 + 1 * (j 0).val; omega
  | ⟨1, _⟩ => show win0_0.index t (1 : Fin 2) * 10000 + 1 * (j 1).val = win0_5.index t (1 : Fin 2) * 10000 + 1 * (j 1).val; omega

/-- An index of the array is in point t's block iff each coordinate is in the block's range on its axis. -/
theorem mem_blk0_4 (t : Fin cfg0.N) (i : S10000x512.Idx) :
    i ∈ ((cfg0.win 4).blk t).view.set ↔ ∀ a : Fin 2, win0_4.index t a * S200x512.size a ≤ (i a).val ∧ (i a).val < win0_4.index t a * S200x512.size a + S200x512.size a := by
  show i ∈ ((View.whole main_v7_0).slice (win0_4.rect t)).set ↔ _
  rw [View.set_slice_whole, Rect.mem_set_unit]
  exact Iff.rfl

/-- Every index is in the block of the point its row falls in: the blocks tile the array. -/
theorem cover0_4 (i : S10000x512.Idx) :
    ∃ t : Fin cfg0.N, (cfg0.win 4).flush t = true ∧ i ∈ ((cfg0.win 4).blk t).view.set := by
  have hi0 : (i 0).val < 10000 := (i 0).isLt
  have hi1 : (i 1).val < 512 := (i 1).isLt
  have hN : cfg0.N = 50 := N_0
  have hlt : (i 0).val / 200 < cfg0.N := by rw [hN]; omega
  obtain ⟨e00, e01, e10, e11, e20, e21, e30, e31, e40, e41, e50, e51⟩ := idx0 ⟨(i 0).val / 200, hlt⟩
  refine ⟨⟨(i 0).val / 200, hlt⟩, flush0_4 _, ?_⟩
  rw [mem_blk0_4]
  intro a
  match a with
  | ⟨0, _⟩ =>
    show win0_4.index ⟨(i 0).val / 200, hlt⟩ (0 : Fin 2) * 200 ≤ (i 0).val
      ∧ (i 0).val < win0_4.index ⟨(i 0).val / 200, hlt⟩ (0 : Fin 2) * 200 + 200
    rw [e40]
    show (i 0).val / 200 * 200 ≤ (i 0).val ∧ (i 0).val < (i 0).val / 200 * 200 + 200
    omega
  | ⟨1, _⟩ =>
    show win0_4.index ⟨(i 0).val / 200, hlt⟩ (1 : Fin 2) * 512 ≤ (i 1).val
      ∧ (i 1).val < win0_4.index ⟨(i 0).val / 200, hlt⟩ (1 : Fin 2) * 512 + 512
    rw [e41]
    omega

/-- The array when the region is left. -/
theorem final0_4 (c : Dev nD) : (dat0 V c).arrAt 4 cfg0.N = hidden V c :=
  (dat0 V c).arrAt_eq_of_cover 4 (hidden V c) (fun t _ => flushed0_4 V c t) cover0_4

/-- An index of the array is in point t's block iff each coordinate is in the block's range on its axis. -/
theorem mem_blk0_5 (t : Fin cfg0.N) (i : S10000x10000.Idx) :
    i ∈ ((cfg0.win 5).blk t).view.set ↔ ∀ a : Fin 2, win0_5.index t a * S200x10000.size a ≤ (i a).val ∧ (i a).val < win0_5.index t a * S200x10000.size a + S200x10000.size a := by
  show i ∈ ((View.whole main_v7_1).slice (win0_5.rect t)).set ↔ _
  rw [View.set_slice_whole, Rect.mem_set_unit]
  exact Iff.rfl

/-- Every index is in the block of the point its row falls in: the blocks tile the array. -/
theorem cover0_5 (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hN : cfg0.N = 50 := N_0
  have hlt : (i 0).val / 200 < cfg0.N := by rw [hN]; omega
  obtain ⟨e00, e01, e10, e11, e20, e21, e30, e31, e40, e41, e50, e51⟩ := idx0 ⟨(i 0).val / 200, hlt⟩
  refine ⟨⟨(i 0).val / 200, hlt⟩, flush0_5 _, ?_⟩
  rw [mem_blk0_5]
  intro a
  match a with
  | ⟨0, _⟩ =>
    show win0_5.index ⟨(i 0).val / 200, hlt⟩ (0 : Fin 2) * 200 ≤ (i 0).val
      ∧ (i 0).val < win0_5.index ⟨(i 0).val / 200, hlt⟩ (0 : Fin 2) * 200 + 200
    rw [e50]
    show (i 0).val / 200 * 200 ≤ (i 0).val ∧ (i 0).val < (i 0).val / 200 * 200 + 200
    omega
  | ⟨1, _⟩ =>
    show win0_5.index ⟨(i 0).val / 200, hlt⟩ (1 : Fin 2) * 10000 ≤ (i 1).val
      ∧ (i 1).val < win0_5.index ⟨(i 0).val / 200, hlt⟩ (1 : Fin 2) * 10000 + 10000
    rw [e51]
    omega

/-- The array when the region is left. -/
theorem final0_5 (c : Dev nD) : (dat0 V c).arrAt 5 cfg0.N = adj V c :=
  (dat0 V c).arrAt_eq_of_cover 5 (adj V c) (fun t _ => flushed0_5 V c t) cover0_5

/-- The same with the arrays the region finds named. -/
theorem hidden_of (c : Dev nD) (A : S10000x10000.Idx → EReal) (X : S10000x512.Idx → EReal) (W : S512x512.Idx → EReal)
    (b : S1x512.Idx → EReal) (hA : (V c main_arg1 : S10000x10000.Idx → EReal) = A)
    (hX : (V c main_v0 : S10000x512.Idx → EReal) = X) (hW : (V c main_v1 : S512x512.Idx → EReal) = W)
    (hb : (V c main_v4 : S1x512.Idx → EReal) = b) :
    (dat0 V c).arrAt 4 cfg0.N = biasRelu (matProd (matProd A X) W) b := by
  subst hA hX hW hb
  exact final0_4 V c

theorem adj_of (c : Dev nD) (A : S10000x10000.Idx → EReal) (hA : (V c main_arg1 : S10000x10000.Idx → EReal) = A) :
    (dat0 V c).arrAt 5 cfg0.N = A := by
  subst hA
  exact final0_5 V c

end Cert.KernelIdeal.Blocks0

end
-- ==== Proof.KernelRegion1.lean ====
/-
  The second region of the kernel program: what its output array holds when the region is left. Point t reads rows
  400·t … 400·t+399 of the propagation matrix A and the whole of the other four operands, and writes back the same
  rows of (max((A·H)·W₁ + b₁, 0))·Wc, an entry of which depends on one row of A only. The twenty-five blocks tile
  the array.
-/
import proofs.«169528_g90134183674392_cont_sun_m_86_6_alg».proof.Proof.Gen.KernelIdeal.Frame
import proofs.«169528_g90134183674392_cont_sun_m_86_6_alg».proof.Proof.KernelBodies
import Idealize.ShloMosaic.Lib.Pipeline.Value
import proofs.«169528_g90134183674392_cont_sun_m_86_6_alg».proof.Proof.LibGraphConv

noncomputable section

open Idealize.ShloMosaic Idealize.ShloMosaic.TcCoe Idealize.SL.Sem
open Idealize.ShloMosaic.Pipeline (Dat)

namespace Cert.KernelIdeal.Blocks1

open Cert.KernelIdeal Cert.KernelIdeal.Gen Cert.KernelIdeal.Bodies Idealize.ShloMosaic.ValueIdx
open Cert.Lib.MatProd Cert.Lib.BiasRelu Cert.Layers Cert.Lib.GraphConv

variable (V : (c : Dev nD) → (b : Ref sig .tc) → Buf (Elt Ideal) ((c : Thread nD τ).loc b))

theorem hz : (![0, 0] : Fin 2 → Nat) = fun _ => 0 := funext fun a => by fin_cases a <;> rfl

/-- The block indices of the region's six windows at each of its twenty-five points: the propagation matrix and the
    output move down one block of rows per point, the other operands stay. -/
theorem idx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- The second hidden layer projected onto the classes, grouped as the kernel computes it:
    (max((A·H)·W₁ + b₁, 0))·Wc of the arrays the region finds. -/
def proj (c : Dev nD) : S10000x40.Idx → EReal :=
  matProd (biasRelu (matProd (matProd (V c main_v7_1 : S10000x10000.Idx → EReal) (V c main_v7_0 : S10000x512.Idx → EReal))
    (V c main_v2 : S512x512.Idx → EReal)) (V c main_v5 : S1x512.Idx → EReal)) (V c main_v3 : S512x40.Idx → EReal)

/-- What point t writes back is block t of `proj`. -/
theorem flushed1_5 (c : Dev nD) (t : Fin cfg1.N) :
    (dat1 V c).flushed 5 t = ((cfg1.win 5).blk t).view.read (Elt Ideal) (proj V c) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x512) hz,
    View.ld_unit_zero (S := S512x512) hz, View.ld_unit_zero (S := S1x512) hz, View.ld_unit_zero (S := S512x40) hz]
  rw [layer2_block]
  obtain ⟨e00, e01, e10, e11, e20, e21, e30, e31, e40, e41, e50, e51⟩ := idx1 t
  funext j
  show matProd (biasRelu (matProd (matProd (iblk1 V c 0 t) (iblk1 V c 1 t)) (iblk1 V c 2 t)) (iblk1 V c 3 t)) (iblk1 V c 4 t) j
    = proj V c (((cfg1.win 5).blk t).view.emb j)
  unfold proj
  refine proj_at (m := 10000) (k := 10000) (n := 512) (l := 512) (m' := 400) (o := 40)
    (V c main_v7_1) (iblk1 V c 0 t) (V c main_v7_0) (iblk1 V c 1 t) (V c main_v2) (iblk1 V c 2 t) (V c main_v5) (iblk1 V c 3 t)
    (V c main_v3) (iblk1 V c 4 t) j (((cfg1.win 5).blk t).view.emb j) (fun k => ?_) ?_ ?_ ?_ ?_ ?_
  · show V c main_v7_1 (((cfg1.win 0).blk t).view.emb (ix2 (⟨(j 0).val, idx2_lt0 j⟩ : Fin 400) k)) = V c main_v7_1 _
    refine congrArg _ (funext fun a => Fin.ext ?_)
    match a with
    | ⟨0, _⟩ => show win1_0.index t (0 : Fin 2) * 400 + 1 * (j 0).val = win1_5.index t (0 : Fin 2) * 400 + 1 * (j 0).val; omega
    | ⟨1, _⟩ => show win1_0.index t (1 : Fin 2) * 10000 + 1 * k.val = k.val; omega
  · funext y
    show V c main_v7_0 (((cfg1.win 1).blk t).view.emb y) = V c main_v7_0 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 512 + 1 * (y 1).val = (y 1).val; omega
  · funext y
    show V c main_v2 (((cfg1.win 2).blk t).view.emb y) = V c main_v2 y
    refine congrArg _ (funext fun a => Fin.ext ?_)
    match a with
    | ⟨0, _⟩ => show win1_2.index t (0 : Fin 2) * 512 + 1 * (y 0).val = (y 0).val; omega
    | ⟨1, _⟩ => show win1_2.index t (1 : Fin 2) * 512 + 1 * (y 1).val = (y 1).val; omega
  · funext y
    show V c main_v5 (((cfg1.win 3).blk t).view.emb y) = V c main_v5 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 512 + 1 * (y 1).val = (y 1).val; omega
  · funext y
    show V c main_v3 (((cfg1.win 4).blk t).view.emb y) = V c main_v3 y
    refine congrArg _ (funext fun a => Fin.ext ?_)
    match a with
    | ⟨0, _⟩ => show win1_4.index t (0 : Fin 2) * 512 + 1 * (y 0).val = (y 0).val; omega
    | ⟨1, _⟩ => show win1_4.index t (1 : Fin 2) * 40 + 1 * (y 1).val = (y 1).val; omega
  · show (j 1).val = win1_5.index t (1 : Fin 2) * 40 + 1 * (j 1).val
    omega

/-- An index of the array is in point t's block iff each coordinate is in the block's range on its axis. -/
theorem mem_blk1_5 (t : Fin cfg1.N) (i : S10000x40.Idx) :
    i ∈ ((cfg1.win 5).blk t).view.set ↔ ∀ a : Fin 2, win1_5.index t a * S400x40.size a ≤ (i a).val ∧ (i a).val < win1_5.index t a * S400x40.size a + S400x40.size a := by
  show i ∈ ((View.whole main_v8).slice (win1_5.rect t)).set ↔ _
  rw [View.set_slice_whole, Rect.mem_set_unit]
  exact Iff.rfl

/-- Every index is in the block of the point its row falls in: the blocks tile the array. -/
theorem cover1_5 (i : S10000x40.Idx) :
    ∃ t : Fin cfg1.N, (cfg1.win 5).flush t = true ∧ i ∈ ((cfg1.win 5).blk t).view.set := by
  have hi0 : (i 0).val < 10000 := (i 0).isLt
  have hi1 : (i 1).val < 40 := (i 1).isLt
  have hN : cfg1.N = 25 := N_1
  have hlt : (i 0).val / 400 < cfg1.N := by rw [hN]; omega
  obtain ⟨e00, e01, e10, e11, e20, e21, e30, e31, e40, e41, e50, e51⟩ := idx1 ⟨(i 0).val / 400, hlt⟩
  refine ⟨⟨(i 0).val / 400, hlt⟩, flush1_5 _, ?_⟩
  rw [mem_blk1_5]
  intro a
  match a with
  | ⟨0, _⟩ =>
    show win1_5.index ⟨(i 0).val / 400, hlt⟩ (0 : Fin 2) * 400 ≤ (i 0).val
      ∧ (i 0).val < win1_5.index ⟨(i 0).val / 400, hlt⟩ (0 : Fin 2) * 400 + 400
    rw [e50]
    show (i 0).val / 400 * 400 ≤ (i 0).val ∧ (i 0).val < (i 0).val / 400 * 400 + 400
    omega
  | ⟨1, _⟩ =>
    show win1_5.index ⟨(i 0).val / 400, hlt⟩ (1 : Fin 2) * 40 ≤ (i 1).val
      ∧ (i 1).val < win1_5.index ⟨(i 0).val / 400, hlt⟩ (1 : Fin 2) * 40 + 40
    rw [e51]
    omega

/-- The array when the region is left. -/
theorem final1_5 (c : Dev nD) : (dat1 V c).arrAt 5 cfg1.N = proj V c :=
  (dat1 V c).arrAt_eq_of_cover 5 (proj V c) (fun t _ => flushed1_5 V c t) cover1_5

/-- The same with the arrays the region finds named. -/
theorem proj_of (c : Dev nD) (A : S10000x10000.Idx → EReal) (H : S10000x512.Idx → EReal) (W : S512x512.Idx → EReal)
    (b : S1x512.Idx → EReal) (P : S512x40.Idx → EReal) (hA : (V c main_v7_1 : S10000x10000.Idx → EReal) = A)
    (hH : (V c main_v7_0 : S10000x512.Idx → EReal) = H) (hW : (V c main_v2 : S512x512.Idx → EReal) = W)
    (hb : (V c main_v5 : S1x512.Idx → EReal) = b) (hP : (V c main_v3 : S512x40.Idx → EReal) = P) :
    (dat1 V c).arrAt 5 cfg1.N = matProd (biasRelu (matProd (matProd A H) W) b) P := by
  subst hA hH hW hb hP
  exact final1_5 V c

end Cert.KernelIdeal.Blocks1

end
-- ==== Proof.KernelRegion2.lean ====
/-
  The third region of the kernel program: what its output array holds when the region is left. Point t reads rows
  400·t … 400·t+399 of the propagation matrix A and the whole of the other two operands, and writes back the same rows
  of the logarithm of the softmax of A·Z + bc along each row (grouped z − (top + lse)), an entry of which depends on
  one row of A only. The twenty-five blocks tile the array.
-/
import proofs.«169528_g90134183674392_cont_sun_m_86_6_alg».proof.Proof.Gen.KernelIdeal.Frame
import proofs.«169528_g90134183674392_cont_sun_m_86_6_alg».proof.Proof.KernelBodies
import Idealize.ShloMosaic.Lib.Pipeline.Value
import proofs.«169528_g90134183674392_cont_sun_m_86_6_alg».proof.Proof.LibGraphConv

noncomputable section

open Idealize.ShloMosaic Idealize.ShloMosaic.TcCoe Idealize.SL.Sem
open Idealize.ShloMosaic.Pipeline (Dat)

namespace Cert.KernelIdeal.Blocks2

open Cert.KernelIdeal Cert.KernelIdeal.Gen Cert.KernelIdeal.Bodies Idealize.ShloMosaic.ValueIdx
open Cert.Lib.MatProd Cert.Lib.BiasRelu Cert.Layers Cert.Lib.GraphConv Cert.Lib.LogSoftmaxRows

variable (V : (c : Dev nD) → (b : Ref sig .tc) → Buf (Elt Ideal) ((c : Thread nD τ).loc b))

theorem hz : (![0, 0] : Fin 2 → Nat) = fun _ => 0 := funext fun a => by fin_cases a <;> rfl

/-- The block indices of the region's four windows at each of its twenty-five points: the propagation matrix and the
    output move down one block of rows per point, the other operands stay. -/
theorem idx2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The result, grouped as the kernel computes it: the logarithm of the softmax of A·Z + bc along each row. -/
def out (c : Dev nD) : S10000x40.Idx → EReal :=
  logSoftmaxK (biasAdd (matProd (V c main_v7_1 : S10000x10000.Idx → EReal) (V c main_v8 : S10000x40.Idx → EReal))
    (V c main_v6 : S1x40.Idx → EReal))

/-- What point t writes back is block t of `out`. -/
theorem flushed2_3 (c : Dev nD) (t : Fin cfg2.N) :
    (dat2 V c).flushed 3 t = ((cfg2.win 3).blk t).view.read (Elt Ideal) (out V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x40) hz, View.ld_unit_zero (S := S1x40) hz]
  rw [layer3_block]
  obtain ⟨e00, e01, e10, e11, e20, e21, e30, e31⟩ := idx2 t
  funext j
  show logSoftmaxK (biasAdd (matProd (iblk2 V c 0 t) (iblk2 V c 1 t)) (iblk2 V c 2 t)) j
    = out V c (((cfg2.win 3).blk t).view.emb j)
  unfold out
  refine logSoftmax_layer_at (m := 10000) (k := 10000) (n := 40) (m' := 400)
    (V c main_v7_1) (iblk2 V c 0 t) (V c main_v8) (iblk2 V c 1 t) (V c main_v6) (iblk2 V c 2 t)
    j (((cfg2.win 3).blk t).view.emb j) (fun k => ?_) ?_ ?_ ?_
  · show V c main_v7_1 (((cfg2.win 0).blk t).view.emb (ix2 (⟨(j 0).val, idx2_lt0 j⟩ : Fin 400) k)) = V c main_v7_1 _
    refine congrArg _ (funext fun a => Fin.ext ?_)
    match a with
    | ⟨0, _⟩ => show win2_0.index t (0 : Fin 2) * 400 + 1 * (j 0).val = win2_3.index t (0 : Fin 2) * 400 + 1 * (j 0).val; omega
    | ⟨1, _⟩ => show win2_0.index t (1 : Fin 2) * 10000 + 1 * k.val = k.val; omega
  · funext y
    show V c main_v8 (((cfg2.win 1).blk t).view.emb y) = V c main_v8 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 40 + 1 * (y 1).val = (y 1).val; omega
  · funext y
    show V c main_v6 (((cfg2.win 2).blk t).view.emb y) = V c main_v6 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 40 + 1 * (y 1).val = (y 1).val; omega
  · show (j 1).val = win2_3.index t (1 : Fin 2) * 40 + 1 * (j 1).val
    omega

/-- An index of the array is in point t's block iff each coordinate is in the block's range on its axis. -/
theorem mem_blk2_3 (t : Fin cfg2.N) (i : S10000x40.Idx) :
    i ∈ ((cfg2.win 3).blk t).view.set ↔ ∀ a : Fin 2, win2_3.index t a * S400x40.size a ≤ (i a).val ∧ (i a).val < win2_3.index t a * S400x40.size a + S400x40.size a := by
  show i ∈ ((View.whole main_v9).slice (win2_3.rect t)).set ↔ _
  rw [View.set_slice_whole, Rect.mem_set_unit]
  exact Iff.rfl

/-- Every index is in the block of the point its row falls in: the blocks tile the array. -/
theorem cover2_3 (i : S10000x40.Idx) :
    ∃ t : Fin cfg2.N, (cfg2.win 3).flush t = true ∧ i ∈ ((cfg2.win 3).blk t).view.set := by
  have hi0 : (i 0).val < 10000 := (i 0).isLt
  have hi1 : (i 1).val < 40 := (i 1).isLt
  have hN : cfg2.N = 25 := N_2
  have hlt : (i 0).val / 400 < cfg2.N := by rw [hN]; omega
  obtain ⟨e00, e01, e10, e11, e20, e21, e30, e31⟩ := idx2 ⟨(i 0).val / 400, hlt⟩
  refine ⟨⟨(i 0).val / 400, hlt⟩, flush2_3 _, ?_⟩
  rw [mem_blk2_3]
  intro a
  match a with
  | ⟨0, _⟩ =>
    show win2_3.index ⟨(i 0).val / 400, hlt⟩ (0 : Fin 2) * 400 ≤ (i 0).val
      ∧ (i 0).val < win2_3.index ⟨(i 0).val / 400, hlt⟩ (0 : Fin 2) * 400 + 400
    rw [e30]
    show (i 0).val / 400 * 400 ≤ (i 0).val ∧ (i 0).val < (i 0).val / 400 * 400 + 400
    omega
  | ⟨1, _⟩ =>
    show win2_3.index ⟨(i 0).val / 400, hlt⟩ (1 : Fin 2) * 40 ≤ (i 1).val
      ∧ (i 1).val < win2_3.index ⟨(i 0).val / 400, hlt⟩ (1 : Fin 2) * 40 + 40
    rw [e31]
    omega

/-- The array when the region is left. -/
theorem final2_3 (c : Dev nD) : (dat2 V c).arrAt 3 cfg2.N = out V c :=
  (dat2 V c).arrAt_eq_of_cover 3 (out V c) (fun t _ => flushed2_3 V c t) cover2_3

/-- The same with the arrays the region finds named. -/
theorem out_of (c : Dev nD) (A : S10000x10000.Idx → EReal) (Z : S10000x40.Idx → EReal) (b : S1x40.Idx → EReal)
    (hA : (V c main_v7_1 : S10000x10000.Idx → EReal) = A) (hZ : (V c main_v8 : S10000x40.Idx → EReal) = Z)
    (hb : (V c main_v6 : S1x40.Idx → EReal) = b) :
    (dat2 V c).arrAt 3 cfg2.N = logSoftmaxK (biasAdd (matProd A Z) b) := by
  subst hA hZ hb
  exact final2_3 V c

end Cert.KernelIdeal.Blocks2

end
-- ==== Proof.KernelValue.lean ====
/-
  The kernel program's result as a whole-array function of its arguments, on the extended reals. The host stretch
  before the regions changes float formats (nothing, on extended reals) and re-shapes each bias vector to a row; the
  first region leaves the propagation matrix's copy and the first hidden layer; the second leaves the second hidden
  layer projected onto the classes; the third the logarithm of the softmax of the logits. Read one after the other, the
  contents at the last boundary, at the result buffer, are `outK` of the arguments.
-/
import proofs.«169528_g90134183674392_cont_sun_m_86_6_alg».proof.Proof.Gen.KernelIdeal.Frame
import proofs.«169528_g90134183674392_cont_sun_m_86_6_alg».proof.Proof.KernelRegion0
import proofs.«169528_g90134183674392_cont_sun_m_86_6_alg».proof.Proof.KernelRegion1
import proofs.«169528_g90134183674392_cont_sun_m_86_6_alg».proof.Proof.KernelRegion2
import proofs.«169528_g90134183674392_cont_sun_m_86_6_alg».proof.Proof.GcnSpec
import proofs.«169528_g90134183674392_cont_sun_m_86_6_alg».proof.Proof.LibRowVector
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo
open Cert.Lib.MatProd Cert.Lib.BiasRelu Cert.Layers Cert.Lib.RowVector Cert.Lib.LogSoftmaxRows Cert.Gcn

variable (m : (ℓ : Loc nD τ sig) → Buf (Elt Ideal) ℓ) (ρ : Dev nD → PrngReg)

/-! ## The host stretch: the arrays the first region finds -/

theorem V1_arg1 (c : Dev nD) : (V1 m ρ c main_arg1 : S10000x10000.Idx → EReal) = (m ((c : Thread nD τ).loc main_arg1)) := by
  show StableHlo.after hostOps0 (W0 m ρ c) (Proc.devRef .tc main_arg1) = _
  after_results <;> rfl

theorem V1_v0 (c : Dev nD) : (V1 m ρ c main_v0 : S10000x512.Idx → EReal) = (m ((c : Thread nD τ).loc main_arg0)) := by
  show StableHlo.after hostOps0 (W0 m ρ c) (Proc.devRef .tc main_v0) = _
  after_results <;> rfl

theorem V1_v1 (c : Dev nD) : (V1 m ρ c main_v1 : S512x512.Idx → EReal) = (m ((c : Thread nD τ).loc main_arg2)) := by
  show StableHlo.after hostOps0 (W0 m ρ c) (Proc.devRef .tc main_v1) = _
  after_results <;> rfl

theorem V1_v2 (c : Dev nD) : (V1 m ρ c main_v2 : S512x512.Idx → EReal) = (m ((c : Thread nD τ).loc main_arg4)) := by
  show StableHlo.after hostOps0 (W0 m ρ c) (Proc.devRef .tc main_v2) = _
  after_results <;> rfl

theorem V1_v3 (c : Dev nD) : (V1 m ρ c main_v3 : S512x40.Idx → EReal) = (m ((c : Thread nD τ).loc main_arg6)) := by
  show StableHlo.after hostOps0 (W0 m ρ c) (Proc.devRef .tc main_v3) = _
  after_results <;> rfl

theorem V1_v4 (c : Dev nD) : (V1 m ρ c main_v4 : S1x512.Idx → EReal) = asRow (m ((c : Thread nD τ).loc main_arg3)) := by
  show StableHlo.after hostOps0 (W0 m ρ c) (Proc.devRef .tc main_v4) = _
  after_results
  funext i
  exact congrFun (shapeCast_eq_asRow (α := EReal) (m ((c : Thread nD τ).loc main_arg3)) shapeCasts_S512_S1x512) i

theorem V1_v5 (c : Dev nD) : (V1 m ρ c main_v5 : S1x512.Idx → EReal) = asRow (m ((c : Thread nD τ).loc main_arg5)) := by
  show StableHlo.after hostOps0 (W0 m ρ c) (Proc.devRef .tc main_v5) = _
  after_results
  funext i
  exact congrFun (shapeCast_eq_asRow (α := EReal) (m ((c : Thread nD τ).loc main_arg5)) shapeCasts_S512_S1x512) i

theorem V1_v6 (c : Dev nD) : (V1 m ρ c main_v6 : S1x40.Idx → EReal) = asRow (m ((c : Thread nD τ).loc main_arg7)) := by
  show StableHlo.after hostOps0 (W0 m ρ c) (Proc.devRef .tc main_v6) = _
  after_results
  funext i
  exact congrFun (shapeCast_eq_asRow (α := EReal) (m ((c : Thread nD τ).loc main_arg7)) shapeCasts_S40_S1x40) i

/-! ## After the first region -/

/-- The propagation matrix's copy is the matrix. -/
theorem V2_v7_1 (c : Dev nD) : (V2 m ρ c main_v7_1 : S10000x10000.Idx → EReal) = (m ((c : Thread nD τ).loc main_arg1)) :=
  (W2_arr m ρ c 5).trans (Cert.KernelIdeal.Blocks0.adj_of (V1 m ρ) c _ (V1_arg1 m ρ c))

/-- The first hidden layer. -/
theorem V2_v7_0 (c : Dev nD) : (V2 m ρ c main_v7_0 : S10000x512.Idx → EReal)
    = biasRelu (matProd (matProd (m ((c : Thread nD τ).loc main_arg1)) (m ((c : Thread nD τ).loc main_arg0))) (m ((c : Thread nD τ).loc main_arg2))) (asRow (m ((c : Thread nD τ).loc main_arg3))) :=
  (W2_arr m ρ c 4).trans (Cert.KernelIdeal.Blocks0.hidden_of (V1 m ρ) c _ _ _ _ (V1_arg1 m ρ c) (V1_v0 m ρ c) (V1_v1 m ρ c) (V1_v4 m ρ c))

theorem V2_v2 (c : Dev nD) : (V2 m ρ c main_v2 : S512x512.Idx → EReal) = (m ((c : Thread nD τ).loc main_arg4)) :=
  (W2_of_ne m ρ c main_v2 (by decide)).trans (V1_v2 m ρ c)
theorem V2_v3 (c : Dev nD) : (V2 m ρ c main_v3 : S512x40.Idx → EReal) = (m ((c : Thread nD τ).loc main_arg6)) :=
  (W2_of_ne m ρ c main_v3 (by decide)).trans (V1_v3 m ρ c)
theorem V2_v5 (c : Dev nD) : (V2 m ρ c main_v5 : S1x512.Idx → EReal) = asRow (m ((c : Thread nD τ).loc main_arg5)) :=
  (W2_of_ne m ρ c main_v5 (by decide)).trans (V1_v5 m ρ c)
theorem V2_v6 (c : Dev nD) : (V2 m ρ c main_v6 : S1x40.Idx → EReal) = asRow (m ((c : Thread nD τ).loc main_arg7)) :=
  (W2_of_ne m ρ c main_v6 (by decide)).trans (V1_v6 m ρ c)

/-! ## After the second region -/

/-- The second hidden layer projected onto the classes. -/
theorem V3_v8 (c : Dev nD) : (V3 m ρ c main_v8 : S10000x40.Idx → EReal)
    = matProd (biasRelu (matProd (matProd (m ((c : Thread nD τ).loc main_arg1))
        (biasRelu (matProd (matProd (m ((c : Thread nD τ).loc main_arg1)) (m ((c : Thread nD τ).loc main_arg0))) (m ((c : Thread nD τ).loc main_arg2))) (asRow (m ((c : Thread nD τ).loc main_arg3))))) (m ((c : Thread nD τ).loc main_arg4))) (asRow (m ((c : Thread nD τ).loc main_arg5)))) (m ((c : Thread nD τ).loc main_arg6)) :=
  (W3_arr m ρ c 5).trans (Cert.KernelIdeal.Blocks1.proj_of (V2 m ρ) c _ _ _ _ _ (V2_v7_1 m ρ c) (V2_v7_0 m ρ c) (V2_v2 m ρ c)
    (V2_v5 m ρ c) (V2_v3 m ρ c))

/-- The second region reads the propagation matrix's copy and leaves it as it was. -/
theorem V3_v7_1 (c : Dev nD) : (V3 m ρ c main_v7_1 : S10000x10000.Idx → EReal) = (m ((c : Thread nD τ).loc main_arg1)) :=
  (W3_arr m ρ c 0).trans (((dat1 (V2 m ρ) c).arrAt_in 0 rfl _).trans ((A_eq1 (V2 m ρ) c 0).trans (V2_v7_1 m ρ c)))

theorem V3_v6 (c : Dev nD) : (V3 m ρ c main_v6 : S1x40.Idx → EReal) = asRow (m ((c : Thread nD τ).loc main_arg7)) :=
  (W3_of_ne m ρ c main_v6 (by decide)).trans (V2_v6 m ρ c)

/-! ## After the third region -/

/-- The result buffer at the last boundary holds `outK` of the arguments. -/
theorem result (c : Dev nD) : (W4 m ρ c (Proc.devRef .tc main_v9) : S10000x40.Idx → EReal)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 3).trans (Cert.KernelIdeal.Blocks2.out_of (V3 m ρ) c _ _ _ (V3_v7_1 m ρ c) (V3_v8 m ρ c) (V3_v6 m ρ c))

end Cert.KernelIdeal.KValue

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.RefRun.lean ====
/-
  The reference program's run, read back. Its 36 host operations are listed in order (the two relu calls and the
  log_softmax call stand as their own operations at the call sites), in two stretches: the first 21 compute the
  logits A·(h₂·Wc) + bc, the last 15 the logarithm of the softmax of the logits along each row. Every weakly fair
  execution ends with the result buffer at the second stretch's term of the first stretch's term of the arguments,
  and the arguments unchanged. Reading the stretches one after the other keeps each term small: the logits occur four
  times in the second stretch's term.
-/
import proofs.«169528_g90134183674392_cont_sun_m_86_6_alg».proof.Proof.Gen.ReferenceIdeal
import Idealize.ShloMosaic.Lib.StableHlo.Run
import proofs.«169528_g90134183674392_cont_sun_m_86_6_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the logits. -/
abbrev opsA : List (HloOp τ sig (Elt F)) :=
  [ binary main_arg0 main_arg2 main_v0 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    binary main_arg1 main_v0 main_v1 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S10000x512 ![0, 1] bcast_S1x512_S10000x512_0_1 : (⟨S1x512, .f32⟩ : BufTy).Contents (Elt F) → (⟨S10000x512, .f32⟩ : BufTy).Contents (Elt F)),
    binary main_v1 main_v3 main_v4 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x512, .f32⟩) main_call0_v0) (broadcastInDim S10000x512 ![] bcast_S_S10000x512),
    TRef.binary (TRef.of (T := ⟨S10000x512, .f32⟩) main_v4) (TRef.of (T := ⟨S10000x512, .f32⟩) main_call0_v0) (TRef.of (T := ⟨S10000x512, .f32⟩) main_v5) maximumf,
    binary main_v5 main_arg4 main_v6 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    binary main_arg1 main_v6 main_v7 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg5 main_v8 (broadcastInDim S1x512 ![1] bcast_S512_S1x512_1 : (⟨S512, .f32⟩ : BufTy).Contents (Elt F) → (⟨S1x512, .f32⟩ : BufTy).Contents (Elt F)),
    unary main_v8 main_v9 (broadcastInDim S10000x512 ![0, 1] bcast_S1x512_S10000x512_0_1 : (⟨S1x512, .f32⟩ : BufTy).Contents (Elt F) → (⟨S10000x512, .f32⟩ : BufTy).Contents (Elt F)),
    binary main_v7 main_v9 main_v10 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x512, .f32⟩) main_call1_v0) (broadcastInDim S10000x512 ![] bcast_S_S10000x512),
    TRef.binary (TRef.of (T := ⟨S10000x512, .f32⟩) main_v10) (TRef.of (T := ⟨S10000x512, .f32⟩) main_call1_v0) (TRef.of (T := ⟨S10000x512, .f32⟩) main_v11) maximumf,
    binary main_v11 main_arg6 main_v12 ((fun l r => Host.dotGeneral dot_S10000x512_S512x40_S10000x40_1_0_0_1_n_n none l r) : (⟨S10000x512, .f32⟩ : BufTy).Contents (Elt F) → (⟨S512x40, .f32⟩ : BufTy).Contents (Elt F) → (⟨S10000x40, .f32⟩ : BufTy).Contents (Elt F)),
    binary main_arg1 main_v12 main_v13 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg7 main_v14 (broadcastInDim S1x40 ![1] bcast_S40_S1x40_1 : (⟨S40, .f32⟩ : BufTy).Contents (Elt F) → (⟨S1x40, .f32⟩ : BufTy).Contents (Elt F)),
    unary main_v14 main_v15 (broadcastInDim S10000x40 ![0, 1] bcast_S1x40_S10000x40_0_1 : (⟨S1x40, .f32⟩ : BufTy).Contents (Elt F) → (⟨S10000x40, .f32⟩ : BufTy).Contents (Elt F)),
    binary main_v13 main_v15 main_v16 (addf : (⟨S10000x40, .f32⟩ : BufTy).Contents (Elt F) → (⟨S10000x40, .f32⟩ : BufTy).Contents (Elt F) → (⟨S10000x40, .f32⟩ : BufTy).Contents (Elt F)) ]

/-- The operations of the logarithm of the softmax. -/
abbrev opsB : List (HloOp τ sig (Elt F)) :=
  [ TRef.nullary (TRef.of (T := ⟨S_, .f32⟩) main_call2_cst) (constant S_ .f32 0xFF800000#32),
    TRef.binary (TRef.of (T := ⟨S10000x40, .f32⟩) main_v16) (TRef.of (T := ⟨S_, .f32⟩) main_call2_cst) (TRef.of (T := ⟨S10000, .f32⟩) main_call2_v0) (fun x v => Host.reduce FloatOps.maximumf x v reducesTo_S10000x40_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x40, .f32⟩) main_call2_v4) (broadcastInDim S10000x40 ![0, 1] bcast_S10000x1_S10000x40_0_1),
    TRef.binary (TRef.of (T := ⟨S10000x40, .f32⟩) main_v16) (TRef.of (T := ⟨S10000x40, .f32⟩) main_call2_v4) (TRef.of (T := ⟨S10000x40, .f32⟩) main_call2_v5) subf,
    TRef.unary (TRef.of (T := ⟨S10000x40, .f32⟩) main_call2_v5) (TRef.of (T := ⟨S10000x40, .f32⟩) main_call2_v6) Host.exp,
    TRef.nullary (TRef.of (T := ⟨S_, .f32⟩) main_call2_cst_1) (constant S_ .f32 0x00000000#32),
    TRef.binary (TRef.of (T := ⟨S10000x40, .f32⟩) main_call2_v6) (TRef.of (T := ⟨S_, .f32⟩) main_call2_cst_1) (TRef.of (T := ⟨S10000, .f32⟩) main_call2_v7) (fun x v => Host.reduceAdd x v reducesTo_S10000x40_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x40, .f32⟩) main_call2_v10) (broadcastInDim S10000x40 ![0, 1] bcast_S10000x1_S10000x40_0_1),
    TRef.binary (TRef.of (T := ⟨S10000x40, .f32⟩) main_call2_v5) (TRef.of (T := ⟨S10000x40, .f32⟩) main_call2_v10) (TRef.of (T := ⟨S10000x40, .f32⟩) main_v17) subf ]

/-- All of @main's operations, in order. -/
abbrev ops : List (HloOp τ sig (Elt F)) :=
  [ binary main_arg0 main_arg2 main_v0 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    binary main_arg1 main_v0 main_v1 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S10000x512 ![0, 1] bcast_S1x512_S10000x512_0_1 : (⟨S1x512, .f32⟩ : BufTy).Contents (Elt F) → (⟨S10000x512, .f32⟩ : BufTy).Contents (Elt F)),
    binary main_v1 main_v3 main_v4 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x512, .f32⟩) main_call0_v0) (broadcastInDim S10000x512 ![] bcast_S_S10000x512),
    TRef.binary (TRef.of (T := ⟨S10000x512, .f32⟩) main_v4) (TRef.of (T := ⟨S10000x512, .f32⟩) main_call0_v0) (TRef.of (T := ⟨S10000x512, .f32⟩) main_v5) maximumf,
    binary main_v5 main_arg4 main_v6 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    binary main_arg1 main_v6 main_v7 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg5 main_v8 (broadcastInDim S1x512 ![1] bcast_S512_S1x512_1 : (⟨S512, .f32⟩ : BufTy).Contents (Elt F) → (⟨S1x512, .f32⟩ : BufTy).Contents (Elt F)),
    unary main_v8 main_v9 (broadcastInDim S10000x512 ![0, 1] bcast_S1x512_S10000x512_0_1 : (⟨S1x512, .f32⟩ : BufTy).Contents (Elt F) → (⟨S10000x512, .f32⟩ : BufTy).Contents (Elt F)),
    binary main_v7 main_v9 main_v10 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x512, .f32⟩) main_call1_v0) (broadcastInDim S10000x512 ![] bcast_S_S10000x512),
    TRef.binary (TRef.of (T := ⟨S10000x512, .f32⟩) main_v10) (TRef.of (T := ⟨S10000x512, .f32⟩) main_call1_v0) (TRef.of (T := ⟨S10000x512, .f32⟩) main_v11) maximumf,
    binary main_v11 main_arg6 main_v12 ((fun l r => Host.dotGeneral dot_S10000x512_S512x40_S10000x40_1_0_0_1_n_n none l r) : (⟨S10000x512, .f32⟩ : BufTy).Contents (Elt F) → (⟨S512x40, .f32⟩ : BufTy).Contents (Elt F) → (⟨S10000x40, .f32⟩ : BufTy).Contents (Elt F)),
    binary main_arg1 main_v12 main_v13 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg7 main_v14 (broadcastInDim S1x40 ![1] bcast_S40_S1x40_1 : (⟨S40, .f32⟩ : BufTy).Contents (Elt F) → (⟨S1x40, .f32⟩ : BufTy).Contents (Elt F)),
    unary main_v14 main_v15 (broadcastInDim S10000x40 ![0, 1] bcast_S1x40_S10000x40_0_1 : (⟨S1x40, .f32⟩ : BufTy).Contents (Elt F) → (⟨S10000x40, .f32⟩ : BufTy).Contents (Elt F)),
    binary main_v13 main_v15 main_v16 (addf : (⟨S10000x40, .f32⟩ : BufTy).Contents (Elt F) → (⟨S10000x40, .f32⟩ : BufTy).Contents (Elt F) → (⟨S10000x40, .f32⟩ : BufTy).Contents (Elt F)),
    TRef.nullary (TRef.of (T := ⟨S_, .f32⟩) main_call2_cst) (constant S_ .f32 0xFF800000#32),
    TRef.binary (TRef.of (T := ⟨S10000x40, .f32⟩) main_v16) (TRef.of (T := ⟨S_, .f32⟩) main_call2_cst) (TRef.of (T := ⟨S10000, .f32⟩) main_call2_v0) (fun x v => Host.reduce FloatOps.maximumf x v reducesTo_S10000x40_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x40, .f32⟩) main_call2_v4) (broadcastInDim S10000x40 ![0, 1] bcast_S10000x1_S10000x40_0_1),
    TRef.binary (TRef.of (T := ⟨S10000x40, .f32⟩) main_v16) (TRef.of (T := ⟨S10000x40, .f32⟩) main_call2_v4) (TRef.of (T := ⟨S10000x40, .f32⟩) main_call2_v5) subf,
    TRef.unary (TRef.of (T := ⟨S10000x40, .f32⟩) main_call2_v5) (TRef.of (T := ⟨S10000x40, .f32⟩) main_call2_v6) Host.exp,
    TRef.nullary (TRef.of (T := ⟨S_, .f32⟩) main_call2_cst_1) (constant S_ .f32 0x00000000#32),
    TRef.binary (TRef.of (T := ⟨S10000x40, .f32⟩) main_call2_v6) (TRef.of (T := ⟨S_, .f32⟩) main_call2_cst_1) (TRef.of (T := ⟨S10000, .f32⟩) main_call2_v7) (fun x v => Host.reduceAdd x v reducesTo_S10000x40_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x40, .f32⟩) main_call2_v10) (broadcastInDim S10000x40 ![0, 1] bcast_S10000x1_S10000x40_0_1),
    TRef.binary (TRef.of (T := ⟨S10000x40, .f32⟩) main_call2_v5) (TRef.of (T := ⟨S10000x40, .f32⟩) main_call2_v10) (TRef.of (T := ⟨S10000x40, .f32⟩) main_v17) subf ]

theorem ops_split : (ops : List (HloOp τ sig (Elt F))) = opsA ++ opsB := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two stretches of operations are the second stretch's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The logits as the operations spell them: three propagation layers, the last without the maximum. -/
def logitsTerm (a0 : FVec F S10000x512 .f32) (a1 : FVec F S10000x10000 .f32) (a2 : FVec F S512x512 .f32) (a3 : FVec F S512 .f32)
    (a4 : FVec F S512x512 .f32) (a5 : FVec F S512 .f32) (a6 : FVec F S512x40 .f32) (a7 : FVec F S40 .f32) : FVec F S10000x40 .f32 :=
  addf (Host.dotGeneral dot_S10000x10000_S10000x40_S10000x40_1_0_0_1_n_n none a1 (Host.dotGeneral dot_S10000x512_S512x40_S10000x40_1_0_0_1_n_n none (maximumf (addf (Host.dotGeneral dot_S10000x10000_S10000x512_S10000x512_1_0_0_1_n_n none a1 (Host.dotGeneral dot_S10000x512_S512x512_S10000x512_1_0_0_1_n_n none (maximumf (addf (Host.dotGeneral dot_S10000x10000_S10000x512_S10000x512_1_0_0_1_n_n none a1 (Host.dotGeneral dot_S10000x512_S512x512_S10000x512_1_0_0_1_n_n none a0 a2)) (broadcastInDim S10000x512 ![0, 1] bcast_S1x512_S10000x512_0_1 (broadcastInDim S1x512 ![1] bcast_S512_S1x512_1 a3))) (broadcastInDim S10000x512 ![] bcast_S_S10000x512 (constant S_ .f32 0x00000000#32))) a4)) (broadcastInDim S10000x512 ![0, 1] bcast_S1x512_S10000x512_0_1 (broadcastInDim S1x512 ![1] bcast_S512_S1x512_1 a5))) (broadcastInDim S10000x512 ![] bcast_S_S10000x512 (constant S_ .f32 0x00000000#32))) a6)) (broadcastInDim S10000x40 ![0, 1] bcast_S1x40_S10000x40_0_1 (broadcastInDim S1x40 ![1] bcast_S40_S1x40_1 a7))

/-- The logarithm of the softmax along each row as the operations spell it. -/
def lsmTerm (L : FVec F S10000x40 .f32) : FVec F S10000x40 .f32 :=
  subf (subf L (broadcastInDim S10000x40 ![0, 1] bcast_S10000x1_S10000x40_0_1 (broadcastInDim S10000x1 ![0] bcast_S10000_S10000x1_0 (maximumf (broadcastInDim S10000 ![] bcast_S_S10000 (constant S_ .f32 0xFF800000#32)) (Host.reduce FloatOps.maximumf L (constant S_ .f32 0xFF800000#32) reducesTo_S10000x40_S10000_d1 h_S_))))) (broadcastInDim S10000x40 ![0, 1] bcast_S10000x1_S10000x40_0_1 (Host.log (broadcastInDim S10000x1 ![0] bcast_S10000_S10000x1_0 (Host.reduceAdd (Host.exp (subf L (broadcastInDim S10000x40 ![0, 1] bcast_S10000x1_S10000x40_0_1 (broadcastInDim S10000x1 ![0] bcast_S10000_S10000x1_0 (maximumf (broadcastInDim S10000 ![] bcast_S_S10000 (constant S_ .f32 0xFF800000#32)) (Host.reduce FloatOps.maximumf L (constant S_ .f32 0xFF800000#32) reducesTo_S10000x40_S10000_d1 h_S_)))))) (constant S_ .f32 0x00000000#32) reducesTo_S10000x40_S10000_d1 h_S_))))

set_option maxHeartbeats 2000000 in
/-- The first stretch leaves the logits in their buffer, from any contents. -/
theorem stageA (W : Valuation τ sig (Elt F)) :
    after opsA W (Proc.devRef .tc main_v16)
      = logitsTerm (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  after_results_simp <;> rfl

set_option maxHeartbeats 2000000 in
/-- The second stretch leaves in the result buffer its term of the logits' buffer, from any contents. -/
theorem stageB (W : Valuation τ sig (Elt F)) :
    after opsB W (Proc.devRef .tc main_v17) = lsmTerm (W (Proc.devRef .tc main_v16)) := by
  after_results_simp
  simp only [Cert.Lib.TypedRefs.ofBuf_toBuf]
  rfl

/-- The result buffer after all the operations from the launch contents. -/
theorem result_eq (m : (ℓ : Loc nD τ sig) → Buf (Elt F) ℓ) (c : Dev nD) :
    after ops (launchContents m c) (Proc.devRef .tc main_v17)
      = lsmTerm (logitsTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  rw [ops_split, after_append, stageB, stageA]

set_option maxHeartbeats 2000000 in
/-- On every device, from any memory with zero counters: every weakly fair execution of @main terminates with the
    result at the operations' term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = lsmTerm (logitsTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v17).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result as a whole-array function on the extended reals: its operations' term is the logarithm of the
  softmax along each row (grouped (z − top) − lse) of the logits z = A·(h₂·Wc) + bc, where h₁ = max(A·(X·W₀) + b₀, 0) and
  h₂ = max(A·(h₁·W₁) + b₁, 0): each dot_general is the matrix product, each bias the vector as a row added to every
  row, each relu the maximum with the zero word.
-/
import proofs.«169528_g90134183674392_cont_sun_m_86_6_alg».proof.Proof.RefRun
import proofs.«169528_g90134183674392_cont_sun_m_86_6_alg».proof.Proof.LibMatProd
import proofs.«169528_g90134183674392_cont_sun_m_86_6_alg».proof.Proof.LibBiasRelu
import proofs.«169528_g90134183674392_cont_sun_m_86_6_alg».proof.Proof.LibDenseLayers
import proofs.«169528_g90134183674392_cont_sun_m_86_6_alg».proof.Proof.LibRowVector
import proofs.«169528_g90134183674392_cont_sun_m_86_6_alg».proof.Proof.LibLogSoftmaxRows
import proofs.«169528_g90134183674392_cont_sun_m_86_6_alg».proof.Proof.GcnSpec

noncomputable section

namespace Cert.ReferenceIdeal.RefValue

open Cert.ReferenceIdeal Cert.ReferenceIdeal.Gen Cert.ReferenceIdeal.RefRun Idealize.ShloMosaic Idealize.ShloMosaic.ValueIdx
open Cert.Lib.MatProd Cert.Lib.BiasRelu Cert.Layers Cert.Lib.RowVector Cert.Lib.LogSoftmaxRows Cert.Gcn

/-- The operations' logits are the logits in the reference's grouping. -/
theorem logitsTerm_eq (a0 : FVec Ideal S10000x512 .f32) (a1 : FVec Ideal S10000x10000 .f32) (a2 : FVec Ideal S512x512 .f32)
    (a3 : FVec Ideal S512 .f32) (a4 : FVec Ideal S512x512 .f32) (a5 : FVec Ideal S512 .f32) (a6 : FVec Ideal S512x40 .f32)
    (a7 : FVec Ideal S40 .f32) :
    logitsTerm (F := Ideal) a0 a1 a2 a3 a4 a5 a6 a7 = logitsR a0 a1 a2 a3 a4 a5 a6 a7 := by
  unfold logitsTerm logitsR
  simp only [Host.dotGeneral]
  rw [dotGeneral_eq_matProd dot_S10000x512_S512x512_S10000x512_1_0_0_1_n_n rfl rfl rfl rfl rfl rfl,
    dotGeneral_eq_matProd dot_S10000x10000_S10000x512_S10000x512_1_0_0_1_n_n rfl rfl rfl rfl rfl rfl,
    Cert.Lib.BiasRelu.host_eq,
    dotGeneral_eq_matProd dot_S10000x512_S512x512_S10000x512_1_0_0_1_n_n rfl rfl rfl rfl rfl rfl,
    dotGeneral_eq_matProd dot_S10000x10000_S10000x512_S10000x512_1_0_0_1_n_n rfl rfl rfl rfl rfl rfl,
    Cert.Lib.BiasRelu.host_eq,
    dotGeneral_eq_matProd dot_S10000x512_S512x40_S10000x40_1_0_0_1_n_n rfl rfl rfl rfl rfl rfl,
    dotGeneral_eq_matProd dot_S10000x10000_S10000x40_S10000x40_1_0_0_1_n_n rfl rfl rfl rfl rfl rfl,
    host_bias]

/-- The operations' logarithm of the softmax is `logSoftmax`. -/
theorem lsmTerm_eq (L : FVec Ideal S10000x40 .f32) : lsmTerm (F := Ideal) L = logSoftmax L := by
  unfold lsmTerm
  exact host_eq L _ _ _ _ _

/-- The reference's result term is `outR` of the arguments. -/
theorem result_eq (a0 : FVec Ideal S10000x512 .f32) (a1 : FVec Ideal S10000x10000 .f32) (a2 : FVec Ideal S512x512 .f32)
    (a3 : FVec Ideal S512 .f32) (a4 : FVec Ideal S512x512 .f32) (a5 : FVec Ideal S512 .f32) (a6 : FVec Ideal S512x40 .f32)
    (a7 : FVec Ideal S40 .f32) :
    lsmTerm (F := Ideal) (logitsTerm (F := Ideal) a0 a1 a2 a3 a4 a5 a6 a7) = outR a0 a1 a2 a3 a4 a5 a6 a7 := by
  rw [lsmTerm_eq, logitsTerm_eq]
  rfl

end Cert.ReferenceIdeal.RefValue

end
-- ==== Proof.lean ====
/-
  The certificate's claims for a three-layer graph convolution followed by the logarithm of the softmax along each row,
  computed by three kernel regions in a row against a plain reference.

  On the extended reals both programs end with one whole-array function of the eight arguments. The kernel's regions
  compute each hidden layer as max((A·H)·W + b, 0) row block by row block, apply the classifier's projection inside the
  second region, and group the last step as z − (top + lse); the reference computes max(A·(H·W) + b, 0) and
  (z − top) − lse. The input check makes every argument entry a real, over which the product of matrices is
  associative, every layer is again an array of reals, and the top of a row of forty reals is a real, so the two
  groupings agree (`Cert.Gcn.outK_eq_outR`). The frames of the two kernel programs are the generated ones; the
  reference's frame is its run with the result dropped; nothing was rewritten by the idealization, so `preserves` is
  trivial.
-/
import proofs.«169528_g90134183674392_cont_sun_m_86_6_alg».proof.Defs
import proofs.«169528_g90134183674392_cont_sun_m_86_6_alg».proof.Proof.Gen.Kernel
import proofs.«169528_g90134183674392_cont_sun_m_86_6_alg».proof.Proof.Gen.Kernel.Frame
import proofs.«169528_g90134183674392_cont_sun_m_86_6_alg».proof.Proof.Gen.KernelIdeal
import proofs.«169528_g90134183674392_cont_sun_m_86_6_alg».proof.Proof.Gen.KernelIdeal.Frame
import proofs.«169528_g90134183674392_cont_sun_m_86_6_alg».proof.Proof.Gen.ReferenceIdeal
import proofs.«169528_g90134183674392_cont_sun_m_86_6_alg».proof.Proof.Gen.Pre_finite_inputs
import proofs.«169528_g90134183674392_cont_sun_m_86_6_alg».proof.Proof.FiniteInputs
import proofs.«169528_g90134183674392_cont_sun_m_86_6_alg».proof.Proof.GcnSpec
import proofs.«169528_g90134183674392_cont_sun_m_86_6_alg».proof.Proof.KernelNamedRun
import proofs.«169528_g90134183674392_cont_sun_m_86_6_alg».proof.Proof.KernelValue
import proofs.«169528_g90134183674392_cont_sun_m_86_6_alg».proof.Proof.RefRun
import proofs.«169528_g90134183674392_cont_sun_m_86_6_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with `outK` of the arguments in their result buffers: the kernel by its regions read
    one after the other, the reference by its operations' term, which is `outR` of arguments that are reals. -/
theorem algebraic : Cert.algebraic_KernelIdeal_ReferenceIdeal := by
  intro m ρ m' ρ' hpre hagree
  refine ⟨fun c => Cert.Gcn.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.result m ρ c), (h c).2⟩)
      (Cert.KernelIdeal.NamedRun.run_named m ρ)
  · refine (θ_run Cert.ReferenceIdeal.defs _ _).mono (fun _ h c => ⟨(h c).1.trans ?_, (h c).2⟩)
      (Cert.ReferenceIdeal.RefRun.run (F := Ideal) m' ρ')
    obtain ⟨g0, g1, g2, g3, g4, g5, g6, g7⟩ := hagree c
    obtain ⟨r0, r1, r2, r3, r4, r5, r6, r7⟩ := Cert.FiniteInputs.reals_of_check _ _ _ _ _ _ _ _ (hpre c)
    rw [Cert.ReferenceIdeal.RefValue.result_eq, g0, g1, g2, g3, g4, g5, g6, g7]
    exact (Cert.Gcn.outK_eq_outR _ _ _ _ _ _ _ _ (by decide) r0 r1 r2 r3 r4 r5 r6 r7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
